-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S800000 : Shape := ⟨1, ![800000]⟩
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg7 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg7
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : IVec S50000 32) (main_arg1 : IVec S800000 32) (main_arg2 : IVec S800000 32) (main_arg3 : FVec F S100000x256 .f32) (main_arg4 : FVec F S256x128 .f32) (main_arg5 : FVec F S128 .f32) (main_arg6 : FVec F S128x40 .f32) (main_arg7 : FVec F S40 .f32) : IVec S_ 1 :=
  let main_v0 : FVec F S100000x256 .f32 := Host.absf main_arg3
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg4
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg6
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg7 main_v13 main_v16
-- ==== Kernel.lean ====
abbrev S50000 : Shape := ⟨1, ![50000]⟩
abbrev S800000 : Shape := ⟨1, ![800000]⟩
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S50000x128 : Shape := ⟨2, ![50000, 128]⟩
abbrev S5000x256 : Shape := ⟨2, ![5000, 256]⟩
abbrev S5000x1 : Shape := ⟨2, ![5000, 1]⟩
abbrev S5000x128 : Shape := ⟨2, ![5000, 128]⟩
abbrev S800000x128 : Shape := ⟨2, ![800000, 128]⟩
abbrev S1x128 : Shape := ⟨2, ![1, 128]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 55
  | .vmem => 18
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S100000x256, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x256, .f32⟩
  | .hbm, ⟨35, _⟩ => ⟨S50000x1, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x1, .f32⟩
  | .hbm, ⟨51, _⟩ => ⟨S1x128, .f32⟩
  | .hbm, ⟨52, _⟩ => ⟨S1x40, .f32⟩
  | .hbm, ⟨53, _⟩ => ⟨S50000x128, .f32⟩
  | .hbm, ⟨54, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S256x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x40, .f32⟩
  | .local _ .vmem, ⟨13, _⟩ => ⟨S1x40, .f32⟩
  | .local _ .vmem, ⟨14, _⟩ => ⟨S5000x128, .f32⟩
  | .local _ .vmem, ⟨15, _⟩ => ⟨S5000x128, .f32⟩
  | .local _ .vmem, ⟨16, _⟩ => ⟨S5000x40, .f32⟩
  | .local _ .vmem, ⟨17, _⟩ => ⟨S5000x40, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S128_S1x128 : S128.ShapeCasts S1x128
  shapeCasts_S40_S1x40 : S40.ShapeCasts S1x40
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S100000x256_S50000x1_S50000x256_1_0_n_n_0_1_1256_wf : GatherDims.WF S100000x256 S50000x1 S50000x256 [1] [0] [] [0] [] 1 ![1, 256]
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S50000x40.size a
  hwx1_6 : ∀ i : grid1.Coords, EltTy.bits .f32 = 32 ∨ (Rect.block (s := S50000x40) S5000x40.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v19) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v35_1) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000 : Shape := ⟨1, ![50000]⟩
abbrev S800000 : Shape := ⟨1, ![800000]⟩
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S_ : Shape := ⟨0, ![]⟩
abbrev S800000x1 : Shape := ⟨2, ![800000, 1]⟩
abbrev S50000x1 : Shape := ⟨2, ![50000, 1]⟩
abbrev S50000x256 : Shape := ⟨2, ![50000, 256]⟩
abbrev S50000x128 : Shape := ⟨2, ![50000, 128]⟩
abbrev S800000x128 : Shape := ⟨2, ![800000, 128]⟩
abbrev S1x128 : Shape := ⟨2, ![1, 128]⟩
abbrev S50000x40 : Shape := ⟨2, ![50000, 40]⟩
abbrev S1x40 : Shape := ⟨2, ![1, 40]⟩

abbrev nBuf : Space → Nat
  | .hbm => 62
  | .vmem => 0
  | .smem => 0
  | _ => 0

abbrev bufTy : (tb : Table) → Fin (tcTables nBuf tb) → BufTy
  | .hbm, ⟨0, _⟩ => ⟨S50000, .i32⟩
  | .hbm, ⟨1, _⟩ => ⟨S800000, .i32⟩
  | .hbm, ⟨2, _⟩ => ⟨S800000, .i32⟩
  | .hbm, ⟨3, _⟩ => ⟨S100000x256, .f32⟩
  | .hbm, ⟨4, _⟩ => ⟨S256x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S50000, .i32⟩
  | .hbm, ⟨28, _⟩ => ⟨S50000, .i1⟩
  | .hbm, ⟨29, _⟩ => ⟨S_, .i32⟩
  | .hbm, ⟨30, _⟩ => ⟨S50000, .i32⟩
  | .hbm, ⟨31, _⟩ => ⟨S50000, .i32⟩
  | .hbm, ⟨32, _⟩ => ⟨S50000, .i32⟩
  | .hbm, ⟨33, _⟩ => ⟨S50000x1, .i32⟩
  | .hbm, ⟨34, _⟩ => ⟨S50000x256, .f32⟩
  | .hbm, ⟨35, _⟩ => ⟨S50000x1, .f32⟩
  | .hbm, ⟨36, _⟩ => ⟨S50000x256, .f32⟩
  | .hbm, ⟨37, _⟩ => ⟨S50000x256, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x1, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x40, .f32⟩
  | .hbm, ⟨59, _⟩ => ⟨S1x40, .f32⟩
  | .hbm, ⟨60, _⟩ => ⟨S50000x40, .f32⟩
  | .hbm, ⟨61, _⟩ => ⟨S50000x40, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S100000x256_S50000x1_S50000x256_1_0_n_n_0_1_1256_wf : GatherDims.WF S100000x256 S50000x1 S50000x256 [1] [0] [] [0] [] 1 ![1, 256]
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The kernel program's run with every buffer's final contents named.

  The program is two stretches of host operations and two pipelined regions.  Run from any launch memory with
  zero counters it terminates without a fault, and every buffer that outlives the regions ends holding what
  the fold of the four segments over the launch contents leaves there: the segments chain from the launch contents
  to the last boundary's, the last thread state holds every such buffer at those contents, and reading it against
  the final memory gives the statement buffer by buffer.
-/
import proofs.«144627_j47725676593438_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, each buffer that is not scoped to a region at the
    contents the fold of the segments leaves. -/
theorem buffers : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.Run

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«144627_j47725676593438_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibScaledLayers.lean ====
/-
  A degree-normalised graph layer and its linear read-out, read at one index on the extended reals.

  Three maps on arrays of rows.  The SCALED PRODUCT takes an [M, K] array x, an [M, 1] column s and a [K, N]
  weight w to the [M, N] array whose entry (r, c) is the sum over k of (x(r, k) · s(r, 0)) · w(k, c): every row
  is multiplied by its own factor and then by the weight.  The SCALE-AND-SHIFT takes an [M, N] array a, an
  [M, 1] column s and a [1, N] row b to a(r, c) · s(r, 0) + b(0, c).  The AFFINE map takes an [M, K] array f, a
  [K, N] weight w and a [1, N] row b to (sum over k of f(r, k) · w(k, c)) + b(0, c).  Each is written two ways
  over whole vectors — as a block of rows computes it (a matrix product into a zero accumulator after a change of
  float format, the column and the row repeated by vector broadcasts) and as a whole-array program computes it (a
  general dot product, dimension-indexed broadcasts) — and both spellings are the same function.  Entry (r, c) of
  each map reads only row r of the row-indexed operands, so a block of consecutive rows of the result is the same
  map of the matching blocks of rows.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«144627_j47725676593438_1_alg».proof.Proof.LibRowOps
import proofs.«144627_j47725676593438_1_alg».proof.Proof.LibDense

noncomputable section

namespace Cert.ScaledLayers

open Idealize.ShloMosaic Idealize.ShloMosaic.ValueIdx Cert.RowOps Cert.Dense

/-! ## Columns and rows, the whole-array spellings -/

section Layout

variable {α : Type} {a b : Nat}

/-- A length-a vector broadcast along axis 0 to an [a, 1] column reads, at (i, u), the vector at i. -/
theorem hostColumn_apply (v : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h v (ix2 i u) = v (ix1 i) :=
  broadcastInDim_apply ![0] h v (ix2 i u) (ix1 i) (fun ax => by
    match ax with
    | ⟨0, _⟩ =>
      show i.val = if a = 1 then 0 else i.val
      split
      · have := i.isLt; omega
      · rfl)

/-- The broadcast column is the vector viewed as a column. -/
theorem hostColumn_eq (v : (⟨1, ![a]⟩ : Shape).Idx → α) (h : (⟨1, ![a]⟩ : Shape).BroadcastsInDim ⟨2, ![a, 1]⟩ ![0])
    (hs : (⟨1, ![a]⟩ : Shape).ShapeCasts ⟨2, ![a, 1]⟩) :
    broadcastInDim ⟨2, ![a, 1]⟩ ![0] h v = shapeCast ⟨2, ![a, 1]⟩ v hs := by
  funext j
  obtain ⟨i, u, rfl⟩ : ∃ (i : Fin a) (u : Fin 1), j = ix2 i u := ⟨j 0, j 1, eq_ix2 j⟩
  rw [hostColumn_apply, column_apply]

/-- A length-b vector broadcast along axis 1 to a [1, b] row reads, at (u, c), the vector at c. -/
theorem hostRow_apply (v : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h v (ix2 u c) = v (ix1 c) :=
  broadcastInDim_apply ![1] h v (ix2 u c) (ix1 c) (fun ax => by
    match ax with
    | ⟨0, _⟩ =>
      show c.val = if b = 1 then 0 else c.val
      split
      · have := c.isLt; omega
      · rfl)

/-- The broadcast row is the vector viewed as a row. -/
theorem hostRow_eq (v : (⟨1, ![b]⟩ : Shape).Idx → α) (h : (⟨1, ![b]⟩ : Shape).BroadcastsInDim ⟨2, ![1, b]⟩ ![1])
    (hs : (⟨1, ![b]⟩ : Shape).ShapeCasts ⟨2, ![1, b]⟩) :
    broadcastInDim ⟨2, ![1, b]⟩ ![1] h v = shapeCast ⟨2, ![1, b]⟩ v hs := by
  funext j
  obtain ⟨u, c, rfl⟩ : ∃ (u : Fin 1) (c : Fin b), j = ix2 u c := ⟨j 0, j 1, eq_ix2 j⟩
  rw [hostRow_apply, shapeCast_a_1a_apply]

/-- An [a, 1] column broadcast over both axes to [a, b] reads, at (i, j), the column at (i, 0). -/
theorem hostSpread_apply (x : (⟨2, ![a, 1]⟩ : Shape).Idx → α) (h : (⟨2, ![a, 1]⟩ : Shape).BroadcastsInDim ⟨2, ![a, b]⟩ ![0, 1])
    (i : Fin a) (j : Fin b) : broadcastInDim ⟨2, ![a, b]⟩ ![0, 1] h x (ix2 i j) = x (ix2 i (0 : Fin 1)) :=
  broadcastInDim_apply ![0, 1] h x (ix2 i j) (ix2 i (0 : Fin 1)) (fun ax => by
    match ax with
    | ⟨0, _⟩ =>
      show i.val = if a = 1 then 0 else i.val
      split
      · have := i.isLt; omega
      · rfl
    | ⟨1, _⟩ => show (0 : Nat) = if (1 : Nat) = 1 then 0 else j.val; rw [if_pos rfl])

/-- A [1, b] row broadcast over both axes to [a, b] reads, at (p, c), the row at (0, c). -/
theorem hostRepeat_apply (x : (⟨2, ![1, b]⟩ : Shape).Idx → α) (h : (⟨2, ![1, b]⟩ : Shape).BroadcastsInDim ⟨2, ![a, b]⟩ ![0, 1])
    (p : Fin a) (c : Fin b) : broadcastInDim ⟨2, ![a, b]⟩ ![0, 1] h x (ix2 p c) = x (ix2 (0 : Fin 1) c) :=
  broadcastInDim_apply ![0, 1] h x (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)

end Layout

/-! ## The three maps -/

section Maps

variable {M M' K N : Nat}

/-- Rows scaled by their own factor, then multiplied by a weight. -/
def scaledProduct (x : (⟨2, ![M, K]⟩ : Shape).Idx → EReal) (s : (⟨2, ![M, 1]⟩ : Shape).Idx → EReal)
    (w : (⟨2, ![K, N]⟩ : Shape).Idx → EReal) : (⟨2, ![M, N]⟩ : Shape).Idx → EReal :=
  fun i => ∑ k : Fin K, (x (ix2 (n0 := M) (i 0) k) * s (ix2 (n0 := M) (i 0) (0 : Fin 1))) * w (ix2 (n1 := N) k (i 1))

theorem scaledProduct_apply (x : (⟨2, ![M, K]⟩ : Shape).Idx → EReal) (s : (⟨2, ![M, 1]⟩ : Shape).Idx → EReal)
    (w : (⟨2, ![K, N]⟩ : Shape).Idx → EReal) (r : Fin M) (c : Fin N) :
    scaledProduct x s w (ix2 r c) = ∑ k : Fin K, (x (ix2 r k) * s (ix2 r (0 : Fin 1))) * w (ix2 k c) := rfl

/-- Entries scaled by their row's factor, a row added. -/
def scaleShift (a : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => a (ix2 (n0 := M) (n1 := N) (i 0) (i 1)) * s (ix2 (n0 := M) (i 0) (0 : Fin 1)) + b (ix2 (n1 := N) (0 : Fin 1) (i 1))

theorem scaleShift_apply (a : (⟨2, ![M, N]⟩ : Shape).Idx → EReal) (s : (⟨2, ![M, 1]⟩ : Shape).Idx → EReal)
    (b : (⟨2, ![1, N]⟩ : Shape).Idx → EReal) (r : Fin M) (c : Fin N) :
    scaleShift a s b (ix2 r c) = a (ix2 r c) * s (ix2 r (0 : Fin 1)) + b (ix2 (0 : Fin 1) c) := rfl

/-- Rows multiplied by a weight, a row added. -/
def affine (f : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, f (ix2 (n0 := M) (i 0) k) * w (ix2 (n1 := N) k (i 1))) + b (ix2 (n1 := N) (0 : Fin 1) (i 1))

theorem affine_apply (f : (⟨2, ![M, K]⟩ : Shape).Idx → EReal) (w : (⟨2, ![K, N]⟩ : Shape).Idx → EReal)
    (b : (⟨2, ![1, N]⟩ : Shape).Idx → EReal) (r : Fin M) (c : Fin N) :
    affine f w b (ix2 r c) = (∑ k : Fin K, f (ix2 r k) * w (ix2 k c)) + b (ix2 (0 : Fin 1) c) := rfl

/-! ### Each entry reads one row -/

/-- Entry (r, c) of the scaled product depends on row r of the rows, on factor r and on column c of the weight only. -/
theorem scaledProduct_row (x : (⟨2, ![M, K]⟩ : Shape).Idx → EReal) (s : (⟨2, ![M, 1]⟩ : Shape).Idx → EReal)
    (w : (⟨2, ![K, N]⟩ : Shape).Idx → EReal)
    (x' : (⟨2, ![M', K]⟩ : Shape).Idx → EReal) (s' : (⟨2, ![M', 1]⟩ : Shape).Idx → EReal)
    (w' : (⟨2, ![K, N]⟩ : Shape).Idx → EReal) (r : Fin M) (r' : Fin M') (c : Fin N)
    (hx : ∀ k : Fin K, x (ix2 r k) = x' (ix2 r' k)) (hs : s (ix2 r (0 : Fin 1)) = s' (ix2 r' (0 : Fin 1)))
    (hw : ∀ k : Fin K, w (ix2 k c) = w' (ix2 k c)) :
    scaledProduct x s w (ix2 r c) = scaledProduct x' s' w' (ix2 r' c) := by
  rw [scaledProduct_apply, scaledProduct_apply]
  exact Finset.sum_congr rfl fun k _ => by rw [hx k, hs, hw k]

/-- Entry (r, c) of the scale-and-shift depends on entry (r, c), on factor r and on entry c of the row only. -/
theorem scaleShift_row (a : (⟨2, ![M, N]⟩ : Shape).Idx → EReal) (s : (⟨2, ![M, 1]⟩ : Shape).Idx → EReal)
    (b : (⟨2, ![1, N]⟩ : Shape).Idx → EReal)
    (a' : (⟨2, ![M', N]⟩ : Shape).Idx → EReal) (s' : (⟨2, ![M', 1]⟩ : Shape).Idx → EReal)
    (b' : (⟨2, ![1, N]⟩ : Shape).Idx → EReal) (r : Fin M) (r' : Fin M') (c : Fin N)
    (ha : a (ix2 r c) = a' (ix2 r' c)) (hs : s (ix2 r (0 : Fin 1)) = s' (ix2 r' (0 : Fin 1)))
    (hb : b (ix2 (0 : Fin 1) c) = b' (ix2 (0 : Fin 1) c)) :
    scaleShift a s b (ix2 r c) = scaleShift a' s' b' (ix2 r' c) := by
  rw [scaleShift_apply, scaleShift_apply, ha, hs, hb]

/-- Entry (r, c) of the affine map depends on row r, on column c of the weight and on entry c of the row only. -/
theorem affine_row (f : (⟨2, ![M, K]⟩ : Shape).Idx → EReal) (w : (⟨2, ![K, N]⟩ : Shape).Idx → EReal)
    (b : (⟨2, ![1, N]⟩ : Shape).Idx → EReal)
    (f' : (⟨2, ![M', K]⟩ : Shape).Idx → EReal) (w' : (⟨2, ![K, N]⟩ : Shape).Idx → EReal)
    (b' : (⟨2, ![1, N]⟩ : Shape).Idx → EReal) (r : Fin M) (r' : Fin M') (c : Fin N)
    (hf : ∀ k : Fin K, f (ix2 r k) = f' (ix2 r' k)) (hw : ∀ k : Fin K, w (ix2 k c) = w' (ix2 k c))
    (hb : b (ix2 (0 : Fin 1) c) = b' (ix2 (0 : Fin 1) c)) :
    affine f w b (ix2 r c) = affine f' w' b' (ix2 r' c) := by
  rw [affine_apply, affine_apply, hb]
  exact congrArg (· + b' (ix2 (0 : Fin 1) c)) (Finset.sum_congr rfl fun k _ => by rw [hf k, hw k])

end Maps

/-! ## The spellings over one block of rows -/

section Block

variable {M K N : Nat}

/-- Rows times their factors, both operands changed to a narrower float format, multiplied into a zero
    accumulator: the scaled product. -/
theorem blockScaledProduct {d : DotDims ⟨2, ![M, K]⟩ ⟨2, ![K, N]⟩ ⟨2, ![M, N]⟩} (hd : IsPlain d)
    (x : FVec Ideal ⟨2, ![M, K]⟩ .f32) (s : FVec Ideal ⟨2, ![M, 1]⟩ .f32) (w : FVec Ideal ⟨2, ![K, N]⟩ .f32)
    (hx : (⟨2, ![M, K]⟩ : Shape).ShapeCasts ⟨2, ![M, K]⟩) (hs : (⟨2, ![M, 1]⟩ : Shape).ShapeCasts ⟨2, ![M, 1]⟩)
    (hb : (⟨2, ![M, 1]⟩ : Shape).Broadcasts ⟨2, ![M, K]⟩) (hlt : FTy.bits .bf16 < FTy.bits .f32) :
    matmul d none (truncf .bf16 (mulf (shapeCast ⟨2, ![M, K]⟩ x hx) (broadcastTo ⟨2, ![M, K]⟩ (shapeCast ⟨2, ![M, 1]⟩ s hs) hb)) hlt)
        (truncf .bf16 w hlt) (constant ⟨2, ![M, N]⟩ .f32 0x00000000#32)
      = scaledProduct x s w := by
  funext j
  obtain ⟨r, c, rfl⟩ : ∃ (r : Fin M) (c : Fin N), j = ix2 r c := ⟨j 0, j 1, eq_ix2 j⟩
  rw [scaledProduct_apply]
  refine (matmul_zero_apply hd none _ _ r c).trans (Finset.sum_congr rfl fun k _ => ?_)
  rw [truncf_apply, truncf_apply, mulf_apply, shapeCast_self, shapeCast_self, spread_apply]

/-- Entries times their row's factor plus a repeated row: the scale-and-shift. -/
theorem blockScaleShift (a : FVec Ideal ⟨2, ![M, N]⟩ .f32) (s : FVec Ideal ⟨2, ![M, 1]⟩ .f32) (b : FVec Ideal ⟨2, ![1, N]⟩ .f32)
    (ha : (⟨2, ![M, N]⟩ : Shape).ShapeCasts ⟨2, ![M, N]⟩) (hs : (⟨2, ![M, 1]⟩ : Shape).ShapeCasts ⟨2, ![M, 1]⟩)
    (hr : (⟨2, ![1, N]⟩ : Shape).ShapeCasts ⟨2, ![1, N]⟩)
    (hb : (⟨2, ![M, 1]⟩ : Shape).Broadcasts ⟨2, ![M, N]⟩) (hb' : (⟨2, ![1, N]⟩ : Shape).Broadcasts ⟨2, ![M, N]⟩) :
    addf (mulf (shapeCast ⟨2, ![M, N]⟩ a ha) (broadcastTo ⟨2, ![M, N]⟩ (shapeCast ⟨2, ![M, 1]⟩ s hs) hb))
        (broadcastTo ⟨2, ![M, N]⟩ (shapeCast ⟨2, ![1, N]⟩ b hr) hb')
      = scaleShift a s b := by
  funext j
  obtain ⟨r, c, rfl⟩ : ∃ (r : Fin M) (c : Fin N), j = ix2 r c := ⟨j 0, j 1, eq_ix2 j⟩
  rw [scaleShift_apply, addf_apply, mulf_apply, shapeCast_self, shapeCast_self, shapeCast_self, spread_apply,
    broadcastTo_1b_ab_apply]

/-- Rows changed to a narrower float format and multiplied into a zero accumulator, a repeated row added: the
    affine map. -/
theorem blockAffine {d : DotDims ⟨2, ![M, K]⟩ ⟨2, ![K, N]⟩ ⟨2, ![M, N]⟩} (hd : IsPlain d)
    (f : FVec Ideal ⟨2, ![M, K]⟩ .f32) (w : FVec Ideal ⟨2, ![K, N]⟩ .f32) (b : FVec Ideal ⟨2, ![1, N]⟩ .f32)
    (hr : (⟨2, ![1, N]⟩ : Shape).ShapeCasts ⟨2, ![1, N]⟩) (hb' : (⟨2, ![1, N]⟩ : Shape).Broadcasts ⟨2, ![M, N]⟩)
    (hlt : FTy.bits .bf16 < FTy.bits .f32) :
    addf (matmul d none (truncf .bf16 f hlt) (truncf .bf16 w hlt) (constant ⟨2, ![M, N]⟩ .f32 0x00000000#32))
        (broadcastTo ⟨2, ![M, N]⟩ (shapeCast ⟨2, ![1, N]⟩ b hr) hb')
      = affine f w b := by
  funext j
  obtain ⟨r, c, rfl⟩ : ∃ (r : Fin M) (c : Fin N), j = ix2 r c := ⟨j 0, j 1, eq_ix2 j⟩
  rw [affine_apply, addf_apply, shapeCast_self, broadcastTo_1b_ab_apply]
  refine congrArg (· + b (ix2 (0 : Fin 1) c)) ((matmul_zero_apply hd none _ _ r c).trans (Finset.sum_congr rfl fun k _ => ?_))
  rw [truncf_apply, truncf_apply]

end Block

/-! ## The spellings over whole arrays -/

section Whole

variable {M K N : Nat}

/-- Rows times their broadcast factors, then the general dot product with the weight: the scaled product. -/
theorem hostScaledProduct {d : DotDims ⟨2, ![M, K]⟩ ⟨2, ![K, N]⟩ ⟨2, ![M, N]⟩} (hd : IsPlain d)
    (x : FVec Ideal ⟨2, ![M, K]⟩ .f32) (s : FVec Ideal ⟨2, ![M, 1]⟩ .f32) (w : FVec Ideal ⟨2, ![K, N]⟩ .f32)
    (h : (⟨2, ![M, 1]⟩ : Shape).BroadcastsInDim ⟨2, ![M, K]⟩ ![0, 1]) :
    Host.dotGeneral d none (mulf x (broadcastInDim ⟨2, ![M, K]⟩ ![0, 1] h s)) w = scaledProduct x s w := by
  funext j
  obtain ⟨r, c, rfl⟩ : ∃ (r : Fin M) (c : Fin N), j = ix2 r c := ⟨j 0, j 1, eq_ix2 j⟩
  rw [scaledProduct_apply]
  refine (hostDot_apply hd none .single _ w r c).trans (Finset.sum_congr rfl fun k _ => ?_)
  rw [mulf_apply, hostSpread_apply]

/-- Entries times their row's broadcast factor plus a broadcast row: the scale-and-shift. -/
theorem hostScaleShift (a : FVec Ideal ⟨2, ![M, N]⟩ .f32) (s : FVec Ideal ⟨2, ![M, 1]⟩ .f32) (b : FVec Ideal ⟨2, ![1, N]⟩ .f32)
    (h : (⟨2, ![M, 1]⟩ : Shape).BroadcastsInDim ⟨2, ![M, N]⟩ ![0, 1])
    (h' : (⟨2, ![1, N]⟩ : Shape).BroadcastsInDim ⟨2, ![M, N]⟩ ![0, 1]) :
    addf (mulf a (broadcastInDim ⟨2, ![M, N]⟩ ![0, 1] h s)) (broadcastInDim ⟨2, ![M, N]⟩ ![0, 1] h' b) = scaleShift a s b := by
  funext j
  obtain ⟨r, c, rfl⟩ : ∃ (r : Fin M) (c : Fin N), j = ix2 r c := ⟨j 0, j 1, eq_ix2 j⟩
  rw [scaleShift_apply, addf_apply, mulf_apply, hostSpread_apply, hostRepeat_apply]

/-- The general dot product with the weight plus a broadcast row: the affine map. -/
theorem hostAffine {d : DotDims ⟨2, ![M, K]⟩ ⟨2, ![K, N]⟩ ⟨2, ![M, N]⟩} (hd : IsPlain d)
    (f : FVec Ideal ⟨2, ![M, K]⟩ .f32) (w : FVec Ideal ⟨2, ![K, N]⟩ .f32) (b : FVec Ideal ⟨2, ![1, N]⟩ .f32)
    (h' : (⟨2, ![1, N]⟩ : Shape).BroadcastsInDim ⟨2, ![M, N]⟩ ![0, 1]) :
    addf (Host.dotGeneral d none f w) (broadcastInDim ⟨2, ![M, N]⟩ ![0, 1] h' b) = affine f w b := by
  funext j
  obtain ⟨r, c, rfl⟩ : ∃ (r : Fin M) (c : Fin N), j = ix2 r c := ⟨j 0, j 1, eq_ix2 j⟩
  rw [affine_apply, addf_apply, hostRepeat_apply]
  exact congrArg (· + b (ix2 (0 : Fin 1) c)) (hostDot_apply hd none .single f w r c)

end Whole

end Cert.ScaledLayers

end
-- ==== Proof.Payload.lean ====
/-
  What one grid point's body computes, as the three maps on a block of 5000 rows.

  The first kernel stores, for its block of node rows, the rows scaled by the source-degree factors and
  multiplied by the projection weight.  The second stores the aggregated rows scaled by the target-degree
  factors with the bias row added, and the read-out of that block: its product with the classifier weight
  plus the classifier's bias row.
-/
import proofs.«144627_j47725676593438_1_alg».proof.Proof.Gen.KernelIdeal.Skeleton
import proofs.«144627_j47725676593438_1_alg».proof.Proof.LibScaledLayers

noncomputable section

namespace Cert.KernelIdeal.Layer

open Idealize.ShloMosaic Cert.KernelIdeal Cert.KernelIdeal.Gen Cert.ScaledLayers Cert.RowOps

/-- The projection's product contracts the rows' second axis with the weight's first. -/
theorem plainProject : IsPlain dot_S5000x256_S256x128_S5000x128_1_0_0_1_n_n := ⟨rfl, rfl, rfl, rfl, rfl, rfl⟩

/-- So does the read-out's. -/
theorem plainReadout : IsPlain dot_S5000x128_S128x40_S5000x40_1_0_0_1_n_n := ⟨rfl, rfl, rfl, rfl, rfl, rfl⟩

/-- The projection kernel's store: the block's rows scaled by their factors, times the weight. -/
theorem projectBlock (x0 : Vec Ideal S5000x256 .f32) (x1 : Vec Ideal S5000x1 .f32) (x2 : Vec Ideal S256x128 .f32) :
    k0_pay1 (F := Ideal) x0 x1 x2 = scaledProduct x0 x1 x2 := by
  unfold k0_pay1
  exact blockScaledProduct plainProject x0 x1 x2 _ _ _ _

/-- The combine kernel's first store: the block's rows scaled by their factors, the bias row added. -/
theorem combineBlock (x0 : Vec Ideal S5000x128 .f32) (x1 : Vec Ideal S5000x1 .f32) (x2 : Vec Ideal S1x128 .f32) :
    k1_pay1 (F := Ideal) x0 x1 x2 = scaleShift x0 x1 x2 := by
  unfold k1_pay1
  exact blockScaleShift x0 x1 x2 _ _ _ _ _

/-- The combine kernel's second store: the read-out of what the first store holds. -/
theorem readoutBlock (x0 : Vec Ideal S5000x128 .f32) (x1 : Vec Ideal S5000x1 .f32) (x2 : Vec Ideal S1x128 .f32)
    (x3 : Vec Ideal S128x40 .f32) (x4 : Vec Ideal S1x40 .f32) :
    k1_pay2 (F := Ideal) x0 x1 x2 x3 x4 = affine (scaleShift x0 x1 x2) x3 x4 := by
  unfold k1_pay2
  rw [combineBlock]
  exact blockAffine plainReadout (scaleShift x0 x1 x2) x3 x4 _ _ _

end Cert.KernelIdeal.Layer

end
-- ==== Proof.ProjectArray.lean ====
/-
  The projection region's output array after its ten grid points.

  Point t stages rows 5000·t … 5000·t + 4999 of the gathered features and of the factor column, the whole
  projection weight, and writes back rows 5000·t … 5000·t + 4999 of the result.  Each entry of the scaled product
  reads one row, so the block a point writes back is that block of the scaled product of the whole arrays; the
  ten blocks tile the 50000 rows, so the array ends holding the scaled product.
-/
import proofs.«144627_j47725676593438_1_alg».proof.Proof.Gen.KernelIdeal.Frame
import proofs.«144627_j47725676593438_1_alg».proof.Proof.Payload
import Idealize.ShloMosaic.Lib.Pipeline.Value

set_option maxRecDepth 16384

noncomputable section

namespace Cert.KernelIdeal.ProjectArray

open Cert.KernelIdeal Cert.KernelIdeal.Gen Idealize.ShloMosaic Idealize.ShloMosaic.TcCoe Idealize.SL.Sem
open Idealize.ShloMosaic.ValueIdx Cert.ScaledLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the row-blocked windows are at row block t, the weight at its only block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature block at point t is rows 5000·t … of the feature array. -/
theorem features_apply (c : Dev nD) (t : Fin cfg0.N) (y : S5000x256.Idx) (k : S50000x256.Idx)
    (hk0 : (k 0).val = t.val * 5000 + (y 0).val) (hk1 : (k 1).val = (y 1).val) :
    (iblk0 V c 0 t : Vec Ideal S5000x256 .f32) y = (V c main_v19 : S50000x256.Idx → EReal) k := by
  obtain ⟨e0, e1, -⟩ := blockIndex t
  unfold iblk0
  rw [View.read_apply]
  show V c main_v19 _ = V c main_v19 k
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 256 + 1 * (y 1).val = (k 1).val; rw [e1, hk1]; omega

/-- The factor block at point t is rows 5000·t … of the factor column. -/
theorem factors_apply (c : Dev nD) (t : Fin cfg0.N) (y : S5000x1.Idx) (k : S50000x1.Idx)
    (hk0 : (k 0).val = t.val * 5000 + (y 0).val) (hk1 : (k 1).val = (y 1).val) :
    (iblk0 V c 1 t : Vec Ideal S5000x1 .f32) y = (V c main_v20 : S50000x1.Idx → EReal) k := by
  obtain ⟨-, -, e0, e1, -⟩ := blockIndex t
  unfold iblk0
  rw [View.read_apply]
  show V c main_v20 _ = V c main_v20 k
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 1 + 1 * (y 1).val = (k 1).val; rw [e1, hk1]; omega

/-- The weight block at every point is the weight. -/
theorem weight_apply (c : Dev nD) (t : Fin cfg0.N) (y : S256x128.Idx) :
    (iblk0 V c 2 t : Vec Ideal S256x128 .f32) y = (V c main_arg4 : S256x128.Idx → EReal) y := by
  obtain ⟨-, -, -, -, e0, e1, -⟩ := blockIndex t
  unfold iblk0
  rw [View.read_apply]
  show V c main_arg4 _ = V c main_arg4 y
  congr 1
  funext a
  apply Fin.ext
  match a with
  | ⟨0, _⟩ => show win0_2.index t (0 : Fin 2) * 256 + 1 * (y 0).val = (y 0).val; rw [e0]; omega
  | ⟨1, _⟩ => show win0_2.index t (1 : Fin 2) * 128 + 1 * (y 1).val = (y 1).val; rw [e1]; omega

/-- Rows o … o + 4999 of the scaled product of whole arrays are the scaled product of those rows. -/
theorem rows_eq (X : S50000x256.Idx → EReal) (S : S50000x1.Idx → EReal) (W : S256x128.Idx → EReal)
    (xb : Vec Ideal S5000x256 .f32) (sb : Vec Ideal S5000x1 .f32) (wb : Vec Ideal S256x128 .f32) (o : Nat)
    (hx : ∀ (y : S5000x256.Idx) (k : S50000x256.Idx), (k 0).val = o + (y 0).val → (k 1).val = (y 1).val → xb y = X k)
    (hs : ∀ (y : S5000x1.Idx) (k : S50000x1.Idx), (k 0).val = o + (y 0).val → (k 1).val = (y 1).val → sb y = S k)
    (hw : ∀ y : S256x128.Idx, wb y = W y)
    (j : S5000x128.Idx) (i : S50000x128.Idx) (hi0 : (i 0).val = o + (j 0).val) (hi1 : (i 1).val = (j 1).val) :
    scaledProduct xb sb wb j = scaledProduct X S W i := by
  obtain ⟨p, q, rfl⟩ : ∃ (p : Fin 5000) (q : Fin 128), j = ix2 p q := ⟨j 0, j 1, eq_ix2 j⟩
  obtain ⟨r, c, rfl⟩ : ∃ (r : Fin 50000) (c : Fin 128), i = ix2 r c := ⟨i 0, i 1, eq_ix2 i⟩
  obtain rfl : c = q := Fin.ext hi1
  exact scaledProduct_row xb sb wb X S W p r c (fun k => hx (ix2 p k) (ix2 r k) hi0 rfl) (hs (ix2 p 0) (ix2 r 0) hi0 rfl)
    (fun k => hw (ix2 k c))

/-- What point t writes back is block t of the scaled product of the arrays the region finds. -/
theorem flushed_eq (c : Dev nD) (t : Fin cfg0.N) :
    (dat0 V c).flushed 3 t = ((cfg0.win 3).blk t).view.read (Elt Ideal)
      (scaledProduct (V c main_v19 : S50000x256.Idx → EReal) (V c main_v20 : S50000x1.Idx → EReal) (V c main_arg4 : S256x128.Idx → EReal)) := by
  show (cfg0.win 3).cut (grid0.coords t) ((dat0 V c).after 3 t) = _
  rw [after0_3]
  unfold out0_3
  rw [View.canon_unit_zero hz]
  simp only [View.ld_unit_zero (S := S5000x256) hz, View.ld_unit_zero (S := S5000x1) hz, View.ld_unit_zero (S := S256x128) hz]
  rw [Layer.projectBlock]
  obtain ⟨-, -, -, -, -, -, e0, e1⟩ := blockIndex t
  funext j
  refine rows_eq (V c main_v19) (V c main_v20) (V c main_arg4) _ _ _ (t.val * 5000)
    (fun y k h0 h1 => features_apply V c t y k h0 h1) (fun y k h0 h1 => factors_apply V c t y k h0 h1)
    (fun y => weight_apply V c t y) j _ ?_ ?_
  · show win0_3.index t (0 : Fin 2) * 5000 + 1 * (j 0).val = t.val * 5000 + (j 0).val
    rw [e0]; omega
  · show win0_3.index t (1 : Fin 2) * 128 + 1 * (j 1).val = (j 1).val
    rw [e1]; omega

/-- An index of the result array is in point t's block iff each coordinate is in the block's range. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v21).slice (win0_3.rect t)).set ↔ _
  rw [View.set_slice_whole, Rect.mem_set_unit]
  exact Iff.rfl

/-- Row r of the result is written back by point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  obtain ⟨-, -, -, -, -, -, e0, e1⟩ := blockIndex ⟨(i 0).val / 5000, by rw [hN]; omega⟩
  rw [mem_blk]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e1]; omega

/-- After the region the result array holds the scaled product of the arrays the region found. -/
theorem final (c : Dev nD) :
    (dat0 V c).arrAt 3 cfg0.N
      = scaledProduct (V c main_v19 : S50000x256.Idx → EReal) (V c main_v20 : S50000x1.Idx → EReal) (V c main_arg4 : S256x128.Idx → EReal) :=
  (dat0 V c).arrAt_eq_of_cover 3 _ (fun t _ => flushed_eq V c t) cover

end Cert.KernelIdeal.ProjectArray

end
-- ==== Proof.CombineArray.lean ====
/-
  The combine region's two output arrays after its ten grid points.

  Point t stages rows 5000·t … 5000·t + 4999 of the aggregated messages and of the factor column, and the whole
  bias row, classifier weight and classifier bias row; it writes back rows 5000·t … 5000·t + 4999 of the layer
  output and of the logits.  Each entry of the scale-and-shift reads one entry of its row, and each entry of the
  read-out one row of the layer output, so the blocks written back are blocks of those maps of the whole arrays;
  the ten blocks tile the 50000 rows of each result.
-/
import proofs.«144627_j47725676593438_1_alg».proof.Proof.Gen.KernelIdeal.Frame
import proofs.«144627_j47725676593438_1_alg».proof.Proof.Payload
import Idealize.ShloMosaic.Lib.Pipeline.Value

set_option maxRecDepth 16384

noncomputable section

namespace Cert.KernelIdeal.CombineArray

open Cert.KernelIdeal Cert.KernelIdeal.Gen Idealize.ShloMosaic Idealize.ShloMosaic.TcCoe Idealize.SL.Sem
open Idealize.ShloMosaic.ValueIdx Cert.ScaledLayers
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices at point t: the row-blocked windows are at row block t, the others at their only block. -/
theorem blockIndex : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- The message block at point t is rows 5000·t … of the aggregated messages. -/
theorem messages_apply (c : Dev nD) (t : Fin cfg1.N) (y : S5000x128.Idx) (k : S50000x128.Idx)
    (hk0 : (k 0).val = t.val * 5000 + (y 0).val) (hk1 : (k 1).val = (y 1).val) :
    (iblk1 V c 0 t : Vec Ideal S5000x128 .f32) y = (V c main_v31 : S50000x128.Idx → EReal) k := by
  obtain ⟨⟨e0, e1⟩, -⟩ := blockIndex t
  unfold iblk1
  rw [View.read_apply]
  show V c main_v31 _ = V c main_v31 k
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- The factor block at point t is rows 5000·t … of the factor column. -/
theorem factors_apply (c : Dev nD) (t : Fin cfg1.N) (y : S5000x1.Idx) (k : S50000x1.Idx)
    (hk0 : (k 0).val = t.val * 5000 + (y 0).val) (hk1 : (k 1).val = (y 1).val) :
    (iblk1 V c 1 t : Vec Ideal S5000x1 .f32) y = (V c main_v32 : S50000x1.Idx → EReal) k := by
  obtain ⟨-, ⟨e0, e1⟩, -⟩ := blockIndex t
  unfold iblk1
  rw [View.read_apply]
  show V c main_v32 _ = V c main_v32 k
  congr 1
  funext a
  apply Fin.ext
  match a with
  | ⟨0, _⟩ => show win1_1.index t (0 : Fin 2) * 5000 + 1 * (y 0).val = (k 0).val; rw [e0, hk0]; omega
  | ⟨1, _⟩ => show win1_1.index t (1 : Fin 2) * 1 + 1 * (y 1).val = (k 1).val; rw [e1, hk1]; omega

/-- The bias-row block at every point is the bias row. -/
theorem bias_apply (c : Dev nD) (t : Fin cfg1.N) (y : S1x128.Idx) :
    (iblk1 V c 2 t : Vec Ideal S1x128 .f32) y = (V c main_v33 : S1x128.Idx → EReal) y := by
  obtain ⟨-, -, ⟨e0, e1⟩, -⟩ := blockIndex t
  unfold iblk1
  rw [View.read_apply]
  show V c main_v33 _ = V c main_v33 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The classifier-weight block at every point is the classifier weight. -/
theorem weight_apply (c : Dev nD) (t : Fin cfg1.N) (y : S128x40.Idx) :
    (iblk1 V c 3 t : Vec Ideal S128x40 .f32) y = (V c main_arg6 : S128x40.Idx → EReal) y := by
  obtain ⟨-, -, -, ⟨e0, e1⟩, -⟩ := blockIndex t
  unfold iblk1
  rw [View.read_apply]
  show V c main_arg6 _ = V c main_arg6 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 40 + 1 * (y 1).val = (y 1).val; rw [e1]; omega

/-- The classifier-bias block at every point is the classifier's bias row. -/
theorem offset_apply (c : Dev nD) (t : Fin cfg1.N) (y : S1x40.Idx) :
    (iblk1 V c 4 t : Vec Ideal S1x40 .f32) y = (V c main_v34 : S1x40.Idx → EReal) y := by
  obtain ⟨-, -, -, -, ⟨e0, e1⟩, -⟩ := blockIndex t
  unfold iblk1
  rw [View.read_apply]
  show V c main_v34 _ = V c main_v34 y
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 40 + 1 * (y 1).val = (y 1).val; rw [e1]; omega

/-- Rows o … o + 4999 of the scale-and-shift of whole arrays are the scale-and-shift of those rows. -/
theorem layer_rows (A : S50000x128.Idx → EReal) (S : S50000x1.Idx → EReal) (B : S1x128.Idx → EReal)
    (ab : Vec Ideal S5000x128 .f32) (sb : Vec Ideal S5000x1 .f32) (bb : Vec Ideal S1x128 .f32) (o : Nat)
    (ha : ∀ (y : S5000x128.Idx) (k : S50000x128.Idx), (k 0).val = o + (y 0).val → (k 1).val = (y 1).val → ab y = A k)
    (hs : ∀ (y : S5000x1.Idx) (k : S50000x1.Idx), (k 0).val = o + (y 0).val → (k 1).val = (y 1).val → sb y = S k)
    (hb : ∀ y : S1x128.Idx, bb y = B y)
    (j : S5000x128.Idx) (i : S50000x128.Idx) (hi0 : (i 0).val = o + (j 0).val) (hi1 : (i 1).val = (j 1).val) :
    scaleShift ab sb bb j = scaleShift A S B i := by
  obtain ⟨p, q, rfl⟩ : ∃ (p : Fin 5000) (q : Fin 128), j = ix2 p q := ⟨j 0, j 1, eq_ix2 j⟩
  obtain ⟨r, c, rfl⟩ : ∃ (r : Fin 50000) (c : Fin 128), i = ix2 r c := ⟨i 0, i 1, eq_ix2 i⟩
  obtain rfl : c = q := Fin.ext hi1
  exact scaleShift_row ab sb bb A S B p r c (ha (ix2 p c) (ix2 r c) hi0 rfl) (hs (ix2 p 0) (ix2 r 0) hi0 rfl) (hb (ix2 0 c))

/-- Rows o … o + 4999 of the read-out of the layer output are the read-out of those rows of the layer output. -/
theorem readout_rows (A : S50000x128.Idx → EReal) (S : S50000x1.Idx → EReal) (B : S1x128.Idx → EReal)
    (W : S128x40.Idx → EReal) (D : S1x40.Idx → EReal)
    (ab : Vec Ideal S5000x128 .f32) (sb : Vec Ideal S5000x1 .f32) (bb : Vec Ideal S1x128 .f32)
    (wb : Vec Ideal S128x40 .f32) (db : Vec Ideal S1x40 .f32) (o : Nat)
    (ha : ∀ (y : S5000x128.Idx) (k : S50000x128.Idx), (k 0).val = o + (y 0).val → (k 1).val = (y 1).val → ab y = A k)
    (hs : ∀ (y : S5000x1.Idx) (k : S50000x1.Idx), (k 0).val = o + (y 0).val → (k 1).val = (y 1).val → sb y = S k)
    (hb : ∀ y : S1x128.Idx, bb y = B y) (hw : ∀ y : S128x40.Idx, wb y = W y) (hd : ∀ y : S1x40.Idx, db y = D y)
    (j : S5000x40.Idx) (i : S50000x40.Idx) (hi0 : (i 0).val = o + (j 0).val) (hi1 : (i 1).val = (j 1).val) :
    affine (scaleShift ab sb bb) wb db j = affine (scaleShift A S B) W D i := by
  obtain ⟨p, q, rfl⟩ : ∃ (p : Fin 5000) (q : Fin 40), j = ix2 p q := ⟨j 0, j 1, eq_ix2 j⟩
  obtain ⟨r, c, rfl⟩ : ∃ (r : Fin 50000) (c : Fin 40), i = ix2 r c := ⟨i 0, i 1, eq_ix2 i⟩
  obtain rfl : c = q := Fin.ext hi1
  exact affine_row (scaleShift ab sb bb) wb db (scaleShift A S B) W D p r c
    (fun k => layer_rows A S B ab sb bb o ha hs hb (ix2 p k) (ix2 r k) hi0 rfl) (fun k => hw (ix2 k c)) (hd (ix2 0 c))

/-! ## The layer output -/

/-- What point t writes back to the layer output is block t of the scale-and-shift of the arrays the region finds. -/
theorem layer_flushed (c : Dev nD) (t : Fin cfg1.N) :
    (dat1 V c).flushed 5 t = ((cfg1.win 5).blk t).view.read (Elt Ideal)
      (scaleShift (V c main_v31 : S50000x128.Idx → EReal) (V c main_v32 : S50000x1.Idx → EReal) (V c main_v33 : S1x128.Idx → EReal)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S1x128) hz]
  rw [Layer.combineBlock]
  obtain ⟨-, -, -, -, -, ⟨e0, e1⟩, -⟩ := blockIndex t
  funext j
  refine layer_rows (V c main_v31) (V c main_v32) (V c main_v33) _ _ _ (t.val * 5000)
    (fun y k h0 h1 => messages_apply V c t y k h0 h1) (fun y k h0 h1 => factors_apply V c t y k h0 h1)
    (fun y => bias_apply V c t y) j _ ?_ ?_
  · show win1_5.index t (0 : Fin 2) * 5000 + 1 * (j 0).val = t.val * 5000 + (j 0).val
    rw [e0]; omega
  · show win1_5.index t (1 : Fin 2) * 128 + 1 * (j 1).val = (j 1).val
    rw [e1]; omega

theorem layer_mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v35_0).slice (win1_5.rect t)).set ↔ _
  rw [View.set_slice_whole, Rect.mem_set_unit]
  exact Iff.rfl

/-- Row r of the layer output is written back by point r / 5000. -/
theorem layer_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  obtain ⟨-, -, -, -, -, ⟨e0, e1⟩, -⟩ := blockIndex ⟨(i 0).val / 5000, by rw [hN]; omega⟩
  rw [layer_mem_blk]
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- After the region the layer output holds the scale-and-shift of the arrays the region found. -/
theorem layer_final (c : Dev nD) :
    (dat1 V c).arrAt 5 cfg1.N
      = scaleShift (V c main_v31 : S50000x128.Idx → EReal) (V c main_v32 : S50000x1.Idx → EReal) (V c main_v33 : S1x128.Idx → EReal) :=
  (dat1 V c).arrAt_eq_of_cover 5 _ (fun t _ => layer_flushed V c t) layer_cover

/-! ## The logits -/

/-- What point t writes back to the logits is block t of the read-out of the layer output. -/
theorem logits_flushed (c : Dev nD) (t : Fin cfg1.N) :
    (dat1 V c).flushed 6 t = ((cfg1.win 6).blk t).view.read (Elt Ideal)
      (affine (scaleShift (V c main_v31 : S50000x128.Idx → EReal) (V c main_v32 : S50000x1.Idx → EReal) (V c main_v33 : S1x128.Idx → EReal))
        (V c main_arg6 : S128x40.Idx → EReal) (V c main_v34 : S1x40.Idx → EReal)) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz, View.ld_unit_zero (S := S1x128) hz,
    View.ld_unit_zero (S := S128x40) hz, View.ld_unit_zero (S := S1x40) hz]
  rw [Layer.readoutBlock]
  obtain ⟨-, -, -, -, -, -, ⟨e0, e1⟩⟩ := blockIndex t
  funext j
  refine readout_rows (V c main_v31) (V c main_v32) (V c main_v33) (V c main_arg6) (V c main_v34) _ _ _ _ _ (t.val * 5000)
    (fun y k h0 h1 => messages_apply V c t y k h0 h1) (fun y k h0 h1 => factors_apply V c t y k h0 h1)
    (fun y => bias_apply V c t y) (fun y => weight_apply V c t y) (fun y => offset_apply V c t y) j _ ?_ ?_
  · show win1_6.index t (0 : Fin 2) * 5000 + 1 * (j 0).val = t.val * 5000 + (j 0).val
    rw [e0]; omega
  · show win1_6.index t (1 : Fin 2) * 40 + 1 * (j 1).val = (j 1).val
    rw [e1]; omega

theorem logits_mem_blk (t : Fin cfg1.N) (i : S50000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v35_1).slice (win1_6.rect t)).set ↔ _
  rw [View.set_slice_whole, Rect.mem_set_unit]
  exact Iff.rfl

/-- Row r of the logits is written back by point r / 5000. -/
theorem logits_cover (i : S50000x40.Idx) :
    ∃ t : Fin cfg1.N, (cfg1.win 6).flush t = true ∧ i ∈ ((cfg1.win 6).blk t).view.set := by
  have hi0 : (i 0).val < 50000 := (i 0).isLt
  have hi1 : (i 1).val < 40 := (i 1).isLt
  have hN : cfg1.N = 10 := N_1
  refine ⟨⟨(i 0).val / 5000, by rw [hN]; omega⟩, flush1_6 _, ?_⟩
  obtain ⟨-, -, -, -, -, -, ⟨e0, e1⟩⟩ := blockIndex ⟨(i 0).val / 5000, by rw [hN]; omega⟩
  rw [logits_mem_blk]
  intro a
  match a with
  | ⟨0, _⟩ =>
    show win1_6.index _ (0 : Fin 2) * 5000 ≤ (i 0).val ∧ (i 0).val < win1_6.index _ (0 : Fin 2) * 5000 + 5000
    rw [e0]; show (i 0).val / 5000 * 5000 ≤ (i 0).val ∧ (i 0).val < (i 0).val / 5000 * 5000 + 5000; omega
  | ⟨1, _⟩ =>
    show win1_6.index _ (1 : Fin 2) * 40 ≤ (i 1).val ∧ (i 1).val < win1_6.index _ (1 : Fin 2) * 40 + 40
    rw [e1]; omega

/-- After the region the logits hold the read-out of the layer output. -/
theorem logits_final (c : Dev nD) :
    (dat1 V c).arrAt 6 cfg1.N
      = affine (scaleShift (V c main_v31 : S50000x128.Idx → EReal) (V c main_v32 : S50000x1.Idx → EReal) (V c main_v33 : S1x128.Idx → EReal))
          (V c main_arg6 : S128x40.Idx → EReal) (V c main_v34 : S1x40.Idx → EReal) :=
  (dat1 V c).arrAt_eq_of_cover 6 _ (fun t _ => logits_flushed V c t) logits_cover

end Cert.KernelIdeal.CombineArray

end
-- ==== Proof.LibRegionOps.lean ====
/-
  A pipelined region with several output arrays as a short line of pure operations.

  A program that alternates stretches of host operations with pipelined regions leaves, at each boundary, the buffer
  contents obtained by folding its segments over the launch contents.  A region replaces its arrays by what its
  write-backs leave and touches nothing else.  If a list of operations writes exactly the region's output arrays, each
  output array ends at what the list leaves there, and every other array of the region ends as the region found it, then
  the region rewrites the contents exactly as that list does.  With one such list per region the whole program is one
  line of operations, and what a buffer holds at the end is a computation over that line.
-/
import Idealize.ShloMosaic.Lib.Pipeline.FrameSuffix
import Idealize.ShloMosaic.Lib.StableHlo.Run

noncomputable section

namespace Cert.RegionOps

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output arrays (those in `outs`) end at what the line `ops` leaves there, whose other arrays end as
    the region found them, while `ops` writes output arrays only, leaves what `ops` leaves. -/
theorem withArrays_eq_after {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (ops : List (HloOp τ sig Val)) (outs : Finset (Fin W))
    (hw : ∀ op ∈ ops, ∀ b ∈ op.writes, ∃ w ∈ outs, b = Proc.devRef .tc (Pipeline.arrRef win w))
    (hout : ∀ w ∈ outs, A w = after ops V (Proc.devRef .tc (Pipeline.arrRef win w)))
    (hin : ∀ w, w ∉ outs → A w = V (Proc.devRef .tc (Pipeline.arrRef win w))) :
    Pipeline.withArrays win c V A = after ops V := by
  funext b
  by_cases h : ∃ w, Proc.devRef .tc (Pipeline.arrRef win w) = b
  · obtain ⟨w, rfl⟩ := h
    rw [Pipeline.withArrays_arr win hinj]
    by_cases hwo : w ∈ outs
    · exact hout w hwo
    · rw [hin w hwo, after_of_forall_not_mem ops V fun op hop hb => by
        obtain ⟨w', hw', e⟩ := hw op hop _ hb
        exact hwo ((hinj (Proc.devRef_injective _ e)) ▸ hw')]
  · rw [after_of_forall_not_mem ops V fun op hop hb => by
      obtain ⟨w', _, e⟩ := hw op hop _ hb
      exact h ⟨w', e.symm⟩]
    unfold Pipeline.withArrays
    rw [dif_neg h]

end Cert.RegionOps

end
-- ==== Proof.Line.lean ====
/-
  The whole program as one line of operations.

  At each boundary between a stretch of host operations and a pipelined region the buffers hold what folding the
  segments so far over the launch contents leaves.  The projection region replaces its result array by the scaled
  product of its three input arrays and changes nothing else, which is what one three-operand operation with
  that function does.  The combine region replaces the layer output by the scale-and-shift of three of its inputs
  and the logits by the read-out of the layer output, which is what two such operations one after the other do.
  So the buffers at the end are the launch contents folded through the first host stretch, the projection, the
  second host stretch, the layer output and the read-out.
-/
import proofs.«144627_j47725676593438_1_alg».proof.Proof.ProjectArray
import proofs.«144627_j47725676593438_1_alg».proof.Proof.CombineArray
import proofs.«144627_j47725676593438_1_alg».proof.Proof.LibRegionOps
import Idealize.ShloMosaic.Lib.StableHlo.Run

set_option maxRecDepth 16384

noncomputable section

namespace Cert.KernelIdeal.Line

open Cert.KernelIdeal Cert.KernelIdeal.Gen Idealize.ShloMosaic Idealize.ShloMosaic.TcCoe Idealize.SL.Sem
open Idealize.ShloMosaic.StableHlo Cert.ScaledLayers
open Idealize.ShloMosaic.Pipeline (Dat)

variable (m : (ℓ : Loc nD τ sig) → Buf (Elt Ideal) ℓ) (ρ : Dev nD → PrngReg)

/-- The projection region as one operation: the result array from the features, the factor column and the weight. -/
def projectOp : HloOp τ sig (Elt Ideal) :=
  ternary main_v19 main_v20 main_arg4 main_v21 (scaledProduct (M := 50000) (K := 256) (N := 128))

/-- The layer output as one operation: from the aggregated messages, the factor column and the bias row. -/
def layerOp : HloOp τ sig (Elt Ideal) :=
  ternary main_v31 main_v32 main_v33 main_v35_0 (scaleShift (M := 50000) (N := 128))

/-- The logits as one operation: from the layer output, the classifier weight and the classifier's bias row. -/
def logitsOp : HloOp τ sig (Elt Ideal) :=
  ternary main_v35_0 main_arg6 main_v34 main_v35_1 (affine (M := 50000) (K := 128) (N := 40))

/-- What the projection operation leaves in the result array, from any contents. -/
theorem projectOp_result (Vv : Valuation τ sig (Elt Ideal)) :
    after [projectOp] Vv (Proc.devRef .tc main_v21)
      = scaledProduct (Vv (Proc.devRef .tc main_v19)) (Vv (Proc.devRef .tc main_v20)) (Vv (Proc.devRef .tc main_arg4)) := by
  unfold projectOp
  after_results

/-- What the two operations of the combine region leave in the layer output, from any contents. -/
theorem layerOp_result (Vv : Valuation τ sig (Elt Ideal)) :
    after [layerOp, logitsOp] Vv (Proc.devRef .tc main_v35_0)
      = scaleShift (Vv (Proc.devRef .tc main_v31)) (Vv (Proc.devRef .tc main_v32)) (Vv (Proc.devRef .tc main_v33)) := by
  unfold layerOp logitsOp
  after_results

/-- What they leave in the logits. -/
theorem logitsOp_result (Vv : Valuation τ sig (Elt Ideal)) :
    after [layerOp, logitsOp] Vv (Proc.devRef .tc main_v35_1)
      = affine (scaleShift (Vv (Proc.devRef .tc main_v31)) (Vv (Proc.devRef .tc main_v32)) (Vv (Proc.devRef .tc main_v33)))
          (Vv (Proc.devRef .tc main_arg6)) (Vv (Proc.devRef .tc main_v34)) := by
  unfold layerOp logitsOp
  after_results

/-- The projection region leaves what the projection operation leaves. -/
theorem afterProject (c : Dev nD) : W2 m ρ c = after [projectOp] (W1 m ρ c) := by
  unfold W2
  refine Cert.RegionOps.withArrays_eq_after spec0 launch0.win.arr_inj c (W1 m ρ c) _ [projectOp] {3} ?_ ?_ ?_
  · intro op hop b hb
    obtain rfl := List.mem_singleton.mp hop
    exact ⟨3, Finset.mem_singleton_self _, Finset.mem_singleton.mp hb⟩
  · intro w hw
    obtain rfl := Finset.mem_singleton.mp hw
    exact (ProjectArray.final (V1 m ρ) c).trans (projectOp_result (W1 m ρ c)).symm
  · intro w hw
    have h3 : w ≠ 3 := fun e => hw (Finset.mem_singleton.mpr e)
    match w, h3 with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, h => exact absurd rfl h

/-- The combine region leaves what the layer-output operation followed by the read-out operation leaves. -/
theorem afterCombine (c : Dev nD) : W4 m ρ c = after [layerOp, logitsOp] (W3 m ρ c) := by
  unfold W4
  refine Cert.RegionOps.withArrays_eq_after spec1 launch1.win.arr_inj c (W3 m ρ c) _ [layerOp, logitsOp] {5, 6} ?_ ?_ ?_
  · intro op hop b hb
    rcases List.mem_cons.mp hop with rfl | hop
    · exact ⟨5, by decide, Finset.mem_singleton.mp hb⟩
    · obtain rfl := List.mem_singleton.mp hop
      exact ⟨6, by decide, Finset.mem_singleton.mp hb⟩
  · intro w hw
    rcases Finset.mem_insert.mp hw with rfl | hw
    · exact (CombineArray.layer_final (V3 m ρ) c).trans (layerOp_result (W3 m ρ c)).symm
    · obtain rfl := Finset.mem_singleton.mp hw
      exact (CombineArray.logits_final (V3 m ρ) c).trans (logitsOp_result (W3 m ρ c)).symm
  · intro w hw
    have h5 : w ≠ 5 := fun e => hw (by rw [e]; decide)
    have h6 : w ≠ 6 := fun e => hw (by rw [e]; decide)
    match w, h5, h6 with
    | ⟨0, _⟩, _, _ => exact ((dat1 (V3 m ρ) c).arrAt_in 0 rfl _).trans (A_eq1 (V3 m ρ) c 0)
    | ⟨1, _⟩, _, _ => exact ((dat1 (V3 m ρ) c).arrAt_in 1 rfl _).trans (A_eq1 (V3 m ρ) c 1)
    | ⟨2, _⟩, _, _ => exact ((dat1 (V3 m ρ) c).arrAt_in 2 rfl _).trans (A_eq1 (V3 m ρ) c 2)
    | ⟨3, _⟩, _, _ => exact ((dat1 (V3 m ρ) c).arrAt_in 3 rfl _).trans (A_eq1 (V3 m ρ) c 3)
    | ⟨4, _⟩, _, _ => exact ((dat1 (V3 m ρ) c).arrAt_in 4 rfl _).trans (A_eq1 (V3 m ρ) c 4)
    | ⟨5, _⟩, h, _ => exact absurd rfl h
    | ⟨6, _⟩, _, h => exact absurd rfl h

/-- The buffers at the end are the launch contents folded through the first host stretch, the projection, the
    second host stretch, the layer output and the read-out. -/
theorem final_eq (c : Dev nD) :
    W4 m ρ c = after [layerOp, logitsOp] (after hostOps1 (after [projectOp] (after hostOps0 (W0 m ρ c)))) := by
  rw [afterCombine]
  show after [layerOp, logitsOp] (after hostOps1 (W2 m ρ c)) = _
  rw [afterProject]

end Cert.KernelIdeal.Line

end
-- ==== Proof.RefStages.lean ====
/-
  The reference program's stages as the three maps on whole arrays.

  The reference multiplies the gathered features by the source-degree factors broadcast along each row and takes
  the general dot product with the projection weight: the scaled product of the features, the factor column and
  the weight.  After the gather along edges and the sum into target nodes it multiplies by the target-degree
  factors and adds the bias: the scale-and-shift.  The logits are the affine map of the layer output.  A factor
  vector broadcast to a column is that vector viewed as a column, and a bias vector broadcast to a row is it
  viewed as a row.
-/
import proofs.«144627_j47725676593438_1_alg».proof.Proof.Gen.ReferenceIdeal.Read
import proofs.«144627_j47725676593438_1_alg».proof.Proof.LibScaledLayers

noncomputable section

namespace Cert.ReferenceIdeal.Stages

open Idealize.ShloMosaic Cert.ReferenceIdeal Cert.ReferenceIdeal.Gen Cert.ReferenceIdeal.Read Cert.ScaledLayers Cert.RowOps

/-- The projection's product contracts the rows' second axis with the weight's first. -/
theorem plainProject : IsPlain dot_S50000x256_S256x128_S50000x128_1_0_0_1_n_n := ⟨rfl, rfl, rfl, rfl, rfl, rfl⟩

/-- So does the read-out's. -/
theorem plainReadout : IsPlain dot_S50000x128_S128x40_S50000x40_1_0_0_1_n_n := ⟨rfl, rfl, rfl, rfl, rfl, rfl⟩

/-- The projected features are the scaled product of the gathered features, the source-degree factors as a
    column, and the weight. -/
theorem project_eq (x0 : (⟨S50000, .i32⟩ : BufTy).Contents (Elt Ideal)) (x1 : (⟨S800000, .i32⟩ : BufTy).Contents (Elt Ideal))
    (x3 : (⟨S100000x256, .f32⟩ : BufTy).Contents (Elt Ideal)) (x4 : (⟨S256x128, .f32⟩ : BufTy).Contents (Elt Ideal))
    (hs : S50000.ShapeCasts S50000x1) :
    val_main_v23 (F := Ideal) x0 x1 x3 x4
      = scaledProduct (val_main_v19 (F := Ideal) x0 x3) (shapeCast S50000x1 (val_main_v9 (F := Ideal) x1) hs) x4 := by
  unfold val_main_v23 val_main_v22 val_main_v21 val_main_v20
  refine (hostScaledProduct plainProject _ _ x4 _).trans ?_
  rw [hostColumn_eq _ _ hs]

/-- The layer output is the scale-and-shift of the aggregated messages, the target-degree factors as a column,
    and the bias as a row. -/
theorem layer_eq (x0 : (⟨S50000, .i32⟩ : BufTy).Contents (Elt Ideal)) (x1 x2 : (⟨S800000, .i32⟩ : BufTy).Contents (Elt Ideal))
    (x3 : (⟨S100000x256, .f32⟩ : BufTy).Contents (Elt Ideal)) (x4 : (⟨S256x128, .f32⟩ : BufTy).Contents (Elt Ideal))
    (x5 : (⟨S128, .f32⟩ : BufTy).Contents (Elt Ideal))
    (hs : S50000.ShapeCasts S50000x1) (hr : S128.ShapeCasts S1x128) :
    val_main_v39 (F := Ideal) x0 x1 x2 x3 x4 x5
      = scaleShift (val_main_v33 (F := Ideal) x0 x1 x2 x3 x4) (shapeCast S50000x1 (val_main_v12 (F := Ideal) x2) hs)
          (shapeCast S1x128 x5 hr) := by
  unfold val_main_v39 val_main_v36 val_main_v38 val_main_v37 val_main_v35 val_main_v34
  refine (hostScaleShift _ _ _ _ _).trans ?_
  rw [hostColumn_eq _ _ hs, hostRow_eq _ _ hr]

/-- The logits are the affine map of the layer output, the classifier weight, and the classifier's bias as a row. -/
theorem logits_eq (x0 : (⟨S50000, .i32⟩ : BufTy).Contents (Elt Ideal)) (x1 x2 : (⟨S800000, .i32⟩ : BufTy).Contents (Elt Ideal))
    (x3 : (⟨S100000x256, .f32⟩ : BufTy).Contents (Elt Ideal)) (x4 : (⟨S256x128, .f32⟩ : BufTy).Contents (Elt Ideal))
    (x5 : (⟨S128, .f32⟩ : BufTy).Contents (Elt Ideal)) (x6 : (⟨S128x40, .f32⟩ : BufTy).Contents (Elt Ideal))
    (x7 : (⟨S40, .f32⟩ : BufTy).Contents (Elt Ideal)) (hr : S40.ShapeCasts S1x40) :
    val_main_v43 (F := Ideal) x0 x1 x2 x3 x4 x5 x6 x7
      = affine (val_main_v39 (F := Ideal) x0 x1 x2 x3 x4 x5) x6 (shapeCast S1x40 x7 hr) := by
  unfold val_main_v43 val_main_v40 val_main_v42 val_main_v41
  refine (hostAffine plainReadout _ x6 _ _).trans ?_
  rw [hostRow_eq _ _ hr]

end Cert.ReferenceIdeal.Stages

end
-- ==== Proof.Bridge.lean ====
/-
  The kernel program's two results are the reference program's two results, as functions of the arguments.

  Folding the launch contents through the line of operations gives, in the layer-output buffer, the scale-and-shift
  of three buffers the second host stretch wrote: the messages aggregated from the projected features, the
  target-degree factors viewed as a column, and the bias viewed as a row; and in the logits buffer the affine map of
  that, the classifier weight, and the classifier's bias viewed as a row.  The reference's stages are the same maps
  of the same arrays, the projected features being the scaled product on both sides; every other operation is the
  same host operation applied to the same operands.  Each stretch is read from arbitrary contents first, so that
  no step looks further back than one stretch.
-/
import proofs.«144627_j47725676593438_1_alg».proof.Proof.Line
import proofs.«144627_j47725676593438_1_alg».proof.Proof.RefStages

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo Cert.ScaledLayers Cert.KernelIdeal.Line
open Cert.ReferenceIdeal.Read (val_main_v39 val_main_v43 val_main_v33 val_main_v30 val_main_v12 val_main_v19 val_main_v9
  val_main_v29 val_main_v31 val_main_v32)

/-! ## The first host stretch, from any contents -/

set_option maxHeartbeats 1000000 in
/-- The gathered features. -/
theorem first_features (Vv : Valuation τ sig (Elt Ideal)) :
    after hostOps0 Vv (Proc.devRef .tc main_v19)
      = val_main_v19 (F := Ideal) (Vv (Proc.devRef .tc main_arg0)) (Vv (Proc.devRef .tc main_arg3)) := by
  after_results_simp
  rfl

set_option maxHeartbeats 1000000 in
/-- The source-degree factors, viewed as a column. -/
theorem first_factors (Vv : Valuation τ sig (Elt Ideal)) :
    after hostOps0 Vv (Proc.devRef .tc main_v20)
      = shapeCast S50000x1 (val_main_v9 (F := Ideal) (Vv (Proc.devRef .tc main_arg1))) shapeCasts_S50000_S50000x1 := by
  after_results_simp
  rfl

set_option maxHeartbeats 1000000 in
/-- The target-degree factors. -/
theorem first_degrees (Vv : Valuation τ sig (Elt Ideal)) :
    after hostOps0 Vv (Proc.devRef .tc main_v12) = val_main_v12 (F := Ideal) (Vv (Proc.devRef .tc main_arg2)) := by
  after_results_simp
  rfl

set_option maxHeartbeats 1000000 in
theorem first_arg1 (Vv : Valuation τ sig (Elt Ideal)) :
    after hostOps0 Vv (Proc.devRef .tc main_arg1) = Vv (Proc.devRef .tc main_arg1) := by
  after_results_simp

set_option maxHeartbeats 1000000 in
theorem first_arg2 (Vv : Valuation τ sig (Elt Ideal)) :
    after hostOps0 Vv (Proc.devRef .tc main_arg2) = Vv (Proc.devRef .tc main_arg2) := by
  after_results_simp

set_option maxHeartbeats 1000000 in
theorem first_arg4 (Vv : Valuation τ sig (Elt Ideal)) :
    after hostOps0 Vv (Proc.devRef .tc main_arg4) = Vv (Proc.devRef .tc main_arg4) := by
  after_results_simp

set_option maxHeartbeats 1000000 in
theorem first_arg5 (Vv : Valuation τ sig (Elt Ideal)) :
    after hostOps0 Vv (Proc.devRef .tc main_arg5) = Vv (Proc.devRef .tc main_arg5) := by
  after_results_simp

set_option maxHeartbeats 1000000 in
theorem first_arg6 (Vv : Valuation τ sig (Elt Ideal)) :
    after hostOps0 Vv (Proc.devRef .tc main_arg6) = Vv (Proc.devRef .tc main_arg6) := by
  after_results_simp

set_option maxHeartbeats 1000000 in
theorem first_arg7 (Vv : Valuation τ sig (Elt Ideal)) :
    after hostOps0 Vv (Proc.devRef .tc main_arg7) = Vv (Proc.devRef .tc main_arg7) := by
  after_results_simp

/-! ## The projection, from any contents: it writes its result array only -/

theorem project_arg1 (Vv : Valuation τ sig (Elt Ideal)) :
    after [projectOp] Vv (Proc.devRef .tc main_arg1) = Vv (Proc.devRef .tc main_arg1) := by
  unfold projectOp
  after_results

theorem project_arg2 (Vv : Valuation τ sig (Elt Ideal)) :
    after [projectOp] Vv (Proc.devRef .tc main_arg2) = Vv (Proc.devRef .tc main_arg2) := by
  unfold projectOp
  after_results

theorem project_arg5 (Vv : Valuation τ sig (Elt Ideal)) :
    after [projectOp] Vv (Proc.devRef .tc main_arg5) = Vv (Proc.devRef .tc main_arg5) := by
  unfold projectOp
  after_results

theorem project_arg6 (Vv : Valuation τ sig (Elt Ideal)) :
    after [projectOp] Vv (Proc.devRef .tc main_arg6) = Vv (Proc.devRef .tc main_arg6) := by
  unfold projectOp
  after_results

theorem project_arg7 (Vv : Valuation τ sig (Elt Ideal)) :
    after [projectOp] Vv (Proc.devRef .tc main_arg7) = Vv (Proc.devRef .tc main_arg7) := by
  unfold projectOp
  after_results

theorem project_v12 (Vv : Valuation τ sig (Elt Ideal)) :
    after [projectOp] Vv (Proc.devRef .tc main_v12) = Vv (Proc.devRef .tc main_v12) := by
  unfold projectOp
  after_results

/-! ## The second host stretch, from any contents -/

set_option maxHeartbeats 1000000 in
/-- The aggregated messages: the projected features gathered along the edges and summed into the target nodes. -/
theorem second_messages (Vv : Valuation τ sig (Elt Ideal)) :
    (after hostOps1 Vv (Proc.devRef .tc main_v31) : (⟨S50000x128, .f32⟩ : BufTy).Contents (Elt Ideal))
      = Host.scatterAdd (F := Ideal) (φ := .f32) Cert.ReferenceIdeal.scatter_S50000x128_S800000x1_S800000x128_1_0_0_1 (val_main_v31 (F := Ideal))
          (val_main_v32 (F := Ideal) (Vv (Proc.devRef .tc main_arg2)))
          (Host.gather Cert.ReferenceIdeal.gather_S50000x128_S800000x1_S800000x128_1_0_n_n_0_1_1128
            ((Vv (Proc.devRef .tc main_v21)) : (⟨S50000x128, .f32⟩ : BufTy).Contents (Elt Ideal))
            (val_main_v29 (F := Ideal) (Vv (Proc.devRef .tc main_arg1)))) := by
  after_results_simp
  rfl

set_option maxHeartbeats 1000000 in
/-- The target-degree factors, viewed as a column. -/
theorem second_factors (Vv : Valuation τ sig (Elt Ideal)) :
    after hostOps1 Vv (Proc.devRef .tc main_v32) = shapeCast S50000x1 (Vv (Proc.devRef .tc main_v12)) shapeCasts_S50000_S50000x1 := by
  after_results_simp
  rfl

set_option maxHeartbeats 1000000 in
/-- The bias, viewed as a row. -/
theorem second_bias (Vv : Valuation τ sig (Elt Ideal)) :
    after hostOps1 Vv (Proc.devRef .tc main_v33) = shapeCast S1x128 (Vv (Proc.devRef .tc main_arg5)) shapeCasts_S128_S1x128 := by
  after_results_simp
  rfl

set_option maxHeartbeats 1000000 in
/-- The classifier's bias, viewed as a row. -/
theorem second_offset (Vv : Valuation τ sig (Elt Ideal)) :
    after hostOps1 Vv (Proc.devRef .tc main_v34) = shapeCast S1x40 (Vv (Proc.devRef .tc main_arg7)) shapeCasts_S40_S1x40 := by
  after_results_simp
  rfl

set_option maxHeartbeats 1000000 in
/-- The classifier weight is not written. -/
theorem second_arg6 (Vv : Valuation τ sig (Elt Ideal)) :
    after hostOps1 Vv (Proc.devRef .tc main_arg6) = Vv (Proc.devRef .tc main_arg6) := by
  after_results_simp

/-! ## The buffers the combine region finds, and the two results -/

variable (m : (ℓ : Loc nD τ sig) → Buf (Elt Ideal) ℓ) (ρ : Dev nD → PrngReg)

/-- The aggregated messages are the reference's: the projected features are the scaled product on both sides. -/
theorem messages_value (c : Dev nD) :
    (after hostOps1 (after [projectOp] (after hostOps0 (W0 m ρ c)))) (Proc.devRef .tc main_v31)
      = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [second_messages, project_arg2, project_arg1, projectOp_result, first_arg2, first_arg1, first_features, first_factors,
    first_arg4]
  unfold val_main_v33 val_main_v30
  rw [Cert.ReferenceIdeal.Stages.project_eq _ _ _ _ shapeCasts_S50000_S50000x1]

/-- The target-degree factors, viewed as a column. -/
theorem factors_value (c : Dev nD) :
    (after hostOps1 (after [projectOp] (after hostOps0 (W0 m ρ c)))) (Proc.devRef .tc main_v32)
      = shapeCast S50000x1 (val_main_v12 (F := Ideal) (m ((c.tc : Thread nD τ).loc main_arg2))) shapeCasts_S50000_S50000x1 := by
  rw [second_factors, project_v12, first_degrees]

/-- The bias, viewed as a row. -/
theorem bias_value (c : Dev nD) :
    (after hostOps1 (after [projectOp] (after hostOps0 (W0 m ρ c)))) (Proc.devRef .tc main_v33)
      = shapeCast S1x128 (m ((c.tc : Thread nD τ).loc main_arg5)) shapeCasts_S128_S1x128 := by
  rw [second_bias, project_arg5, first_arg5]

/-- The classifier weight is the argument. -/
theorem weight_value (c : Dev nD) :
    (after hostOps1 (after [projectOp] (after hostOps0 (W0 m ρ c)))) (Proc.devRef .tc main_arg6) = (m ((c.tc : Thread nD τ).loc main_arg6)) := by
  rw [second_arg6, project_arg6, first_arg6]

/-- The classifier's bias, viewed as a row. -/
theorem offset_value (c : Dev nD) :
    (after hostOps1 (after [projectOp] (after hostOps0 (W0 m ρ c)))) (Proc.devRef .tc main_v34)
      = shapeCast S1x40 (m ((c.tc : Thread nD τ).loc main_arg7)) shapeCasts_S40_S1x40 := by
  rw [second_offset, project_arg7, first_arg7]

/-- The layer-output buffer ends at the reference's layer output. -/
theorem layer_value (c : Dev nD) :
    W4 m ρ c (Proc.devRef .tc main_v35_0) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [final_eq, layerOp_result, messages_value, factors_value, bias_value]
  exact (Cert.ReferenceIdeal.Stages.layer_eq _ _ _ _ _ _ shapeCasts_S50000_S50000x1 shapeCasts_S128_S1x128).symm

/-- The logits buffer ends at the reference's logits. -/
theorem logits_value (c : Dev nD) :
    W4 m ρ c (Proc.devRef .tc main_v35_1) = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [final_eq, logitsOp_result, messages_value, factors_value, bias_value, weight_value, offset_value]
  rw [← Cert.ReferenceIdeal.Stages.layer_eq _ _ _ _ _ _ shapeCasts_S50000_S50000x1 shapeCasts_S128_S1x128]
  exact (Cert.ReferenceIdeal.Stages.logits_eq _ _ _ _ _ _ _ _ shapeCasts_S40_S1x40).symm

end Cert.KernelIdeal.Bridge

end
-- ==== Proof.lean ====
/-
  A two-layer graph network: degree-normalised projection, aggregation along edges, combine with bias, linear
  read-out — computed by two row-tiled kernels with host gathers and scatters around them, against the same network
  written over whole arrays.

  On the extended reals a change of float format is the identity and a matrix product into a zero accumulator is the
  plain sum over the shared axis, so each kernel's block of rows is a block of the corresponding whole-array map
  (the scaled product; the scale-and-shift; the affine read-out).  The ten blocks of each result tile its rows, so
  each region acts on the buffers as one whole-array operation, and the program is one line of operations whose
  two results are, operation by operation, the reference's.  No law of arithmetic beyond the definitions of the
  operations is used, and the finiteness of the inputs is not needed.

  The three frames are the generated ones (the reference's is its generated run with the results dropped); the
  idealization rewrote nothing, so there is nothing to preserve.
-/
import proofs.«144627_j47725676593438_1_alg».proof.Defs
import proofs.«144627_j47725676593438_1_alg».proof.Proof.Gen.Kernel
import proofs.«144627_j47725676593438_1_alg».proof.Proof.Gen.Kernel.Skeleton
import proofs.«144627_j47725676593438_1_alg».proof.Proof.Gen.Kernel.Launch
import proofs.«144627_j47725676593438_1_alg».proof.Proof.Gen.Kernel.Points
import proofs.«144627_j47725676593438_1_alg».proof.Proof.Gen.Kernel.Frame
import proofs.«144627_j47725676593438_1_alg».proof.Proof.Gen.KernelIdeal
import proofs.«144627_j47725676593438_1_alg».proof.Proof.Gen.KernelIdeal.Skeleton
import proofs.«144627_j47725676593438_1_alg».proof.Proof.Gen.KernelIdeal.Launch
import proofs.«144627_j47725676593438_1_alg».proof.Proof.Gen.KernelIdeal.Points
import proofs.«144627_j47725676593438_1_alg».proof.Proof.Gen.KernelIdeal.Frame
import proofs.«144627_j47725676593438_1_alg».proof.Proof.Gen.ReferenceIdeal
import proofs.«144627_j47725676593438_1_alg».proof.Proof.Gen.Pre_finite_inputs
import proofs.«144627_j47725676593438_1_alg».proof.Proof.Gen.ReferenceIdeal.Run
import proofs.«144627_j47725676593438_1_alg».proof.Proof.Gen.ReferenceIdeal.Read
import proofs.«144627_j47725676593438_1_alg».proof.Proof.KernelRun
import proofs.«144627_j47725676593438_1_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the layer output and the logits
    at the reference's stages of the arguments. -/
theorem algebraic : Cert.algebraic_KernelIdeal_ReferenceIdeal := by
  intro m ρ m' ρ' _ hagree
  refine ⟨fun c => Cert.ReferenceIdeal.Read.val_main_v39 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.Run.buffers (F := Ideal) m ρ)
    exact ⟨(h c Cert.KernelIdeal.main_v35_0 (by decide)).trans (Cert.KernelIdeal.Bridge.layer_value m ρ c),
      (h c Cert.KernelIdeal.main_v35_1 (by decide)).trans (Cert.KernelIdeal.Bridge.logits_value m ρ c),
      (h c Cert.KernelIdeal.main_arg0 (by decide)).trans (Cert.KernelIdeal.Gen.W4_main_arg0 m ρ c),
      (h c Cert.KernelIdeal.main_arg1 (by decide)).trans (Cert.KernelIdeal.Gen.W4_main_arg1 m ρ c),
      (h c Cert.KernelIdeal.main_arg2 (by decide)).trans (Cert.KernelIdeal.Gen.W4_main_arg2 m ρ c),
      (h c Cert.KernelIdeal.main_arg3 (by decide)).trans (Cert.KernelIdeal.Gen.W4_main_arg3 m ρ c),
      (h c Cert.KernelIdeal.main_arg4 (by decide)).trans (Cert.KernelIdeal.Gen.W4_main_arg4 m ρ c),
      (h c Cert.KernelIdeal.main_arg5 (by decide)).trans (Cert.KernelIdeal.Gen.W4_main_arg5 m ρ c),
      (h c Cert.KernelIdeal.main_arg6 (by decide)).trans (Cert.KernelIdeal.Gen.W4_main_arg6 m ρ c),
      (h c Cert.KernelIdeal.main_arg7 (by decide)).trans (Cert.KernelIdeal.Gen.W4_main_arg7 m ρ c)⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7⟩ := hagree c
    refine ⟨h0.trans ((Cert.ReferenceIdeal.Read.val_main_v39_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))).trans ?_),
      h1.trans ((Cert.ReferenceIdeal.Read.val_main_v43_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))).trans ?_), hargs⟩
    · rw [e0, e1, e2, e3, e4, e5]
    · rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
